-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128x64 .f32) (main_arg10 : FVec F S128x64 .f32) (main_arg11 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S128x64 .f32) (main_arg10 : FVec F S128x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x64 .f32) (main_arg10 : FVec F S128x64 .f32) (main_arg11 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 73
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S100000x128, .f32⟩
  | .hbm, ⟨53, _⟩ => ⟨S100000x128, .f32⟩
  | .hbm, ⟨54, _⟩ => ⟨S1x128, .f32⟩
  | .hbm, ⟨55, _⟩ => ⟨S100000x128, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .f32⟩
  | .hbm, ⟨65, _⟩ => ⟨S_, .f32⟩
  | .hbm, ⟨66, _⟩ => ⟨S100000x128, .f32⟩
  | .hbm, ⟨67, _⟩ => ⟨S1600000x1, .i32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S1x64, .f32⟩
  | .hbm, ⟨72, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S128x64, .f32⟩
  | .local _ .vmem, ⟨24, _⟩ => ⟨S1x64, .f32⟩
  | .local _ .vmem, ⟨25, _⟩ => ⟨S5000x64, .f32⟩
  | .local _ .vmem, ⟨26, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v34) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v48) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 111
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S1600000, .f32⟩
  | .hbm, ⟨48, _⟩ => ⟨S_, .f32⟩
  | .hbm, ⟨49, _⟩ => ⟨S100000, .f32⟩
  | .hbm, ⟨50, _⟩ => ⟨S1600000x1, .i32⟩
  | .hbm, ⟨51, _⟩ => ⟨S100000, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S1x128, .f32⟩
  | .hbm, ⟨75, _⟩ => ⟨S100000x128, .f32⟩
  | .hbm, ⟨76, _⟩ => ⟨S100000x128, .f32⟩
  | .hbm, ⟨77, _⟩ => ⟨S_, .f32⟩
  | .hbm, ⟨78, _⟩ => ⟨S100000x128, .f32⟩
  | .hbm, ⟨79, _⟩ => ⟨S100000x128, .f32⟩
  | .hbm, ⟨80, _⟩ => ⟨S_, .f32⟩
  | .hbm, ⟨81, _⟩ => ⟨S1600000, .f32⟩
  | .hbm, ⟨82, _⟩ => ⟨S_, .f32⟩
  | .hbm, ⟨83, _⟩ => ⟨S100000, .f32⟩
  | .hbm, ⟨84, _⟩ => ⟨S1600000x1, .i32⟩
  | .hbm, ⟨85, _⟩ => ⟨S100000, .f32⟩
  | .hbm, ⟨86, _⟩ => ⟨S_, .i32⟩
  | .hbm, ⟨87, _⟩ => ⟨S1600000, .i32⟩
  | .hbm, ⟨88, _⟩ => ⟨S1600000, .i1⟩
  | .hbm, ⟨89, _⟩ => ⟨S_, .i32⟩
  | .hbm, ⟨90, _⟩ => ⟨S1600000, .i32⟩
  | .hbm, ⟨91, _⟩ => ⟨S1600000, .i32⟩
  | .hbm, ⟨92, _⟩ => ⟨S1600000, .i32⟩
  | .hbm, ⟨93, _⟩ => ⟨S1600000x1, .i32⟩
  | .hbm, ⟨94, _⟩ => ⟨S1600000x128, .f32⟩
  | .hbm, ⟨95, _⟩ => ⟨S_, .f32⟩
  | .hbm, ⟨96, _⟩ => ⟨S100000x128, .f32⟩
  | .hbm, ⟨97, _⟩ => ⟨S1600000x1, .i32⟩
  | .hbm, ⟨98, _⟩ => ⟨S100000x128, .f32⟩
  | .hbm, ⟨99, _⟩ => ⟨S_, .f32⟩
  | .hbm, ⟨100, _⟩ => ⟨S100000, .f32⟩
  | .hbm, ⟨101, _⟩ => ⟨S100000, .f32⟩
  | .hbm, ⟨102, _⟩ => ⟨S100000x1, .f32⟩
  | .hbm, ⟨103, _⟩ => ⟨S100000x128, .f32⟩
  | .hbm, ⟨104, _⟩ => ⟨S100000x128, .f32⟩
  | .hbm, ⟨105, _⟩ => ⟨S100000x64, .f32⟩
  | .hbm, ⟨106, _⟩ => ⟨S100000x64, .f32⟩
  | .hbm, ⟨107, _⟩ => ⟨S100000x64, .f32⟩
  | .hbm, ⟨108, _⟩ => ⟨S1x64, .f32⟩
  | .hbm, ⟨109, _⟩ => ⟨S100000x64, .f32⟩
  | .hbm, ⟨110, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call0_cst : Ref sig .tc := ⟨.hbm, 43, rfl⟩
abbrev main_call0_v0 : Ref sig .tc := ⟨.hbm, 44, rfl⟩
abbrev main_v25 : Ref sig .tc := ⟨.hbm, 45, rfl⟩
abbrev main_cst_4 : Ref sig .tc := ⟨.hbm, 46, rfl⟩
abbrev main_v26 : Ref sig .tc := ⟨.hbm, 47, rfl⟩
abbrev main_cst_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_c_7 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_8 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_call1_cst : Ref sig .tc := ⟨.hbm, 77, rfl⟩
abbrev main_call1_v0 : Ref sig .tc := ⟨.hbm, 78, rfl⟩
abbrev main_v51 : Ref sig .tc := ⟨.hbm, 79, rfl⟩
abbrev main_cst_10 : Ref sig .tc := ⟨.hbm, 80, rfl⟩
abbrev main_v52 : Ref sig .tc := ⟨.hbm, 81, rfl⟩
abbrev main_cst_11 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_12 : Ref sig .tc := ⟨.hbm, 86, rfl⟩
abbrev main_v56 : Ref sig .tc := ⟨.hbm, 87, rfl⟩
abbrev main_v57 : Ref sig .tc := ⟨.hbm, 88, rfl⟩
abbrev main_c_13 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_14 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_15 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel's run with its result named. The program is three regions among three stretches of host operations;
  the contents of every buffer at each of the six boundaries are known functions of the launch memory, the last of them
  (after the third region) being what the final state holds. So every weakly fair execution terminates with the result array
  at the last boundary's contents of its buffer, and with the twelve arguments as launched.
-/
import proofs.«115271_j49486613185053_1_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the contents the last boundary
    gives it, and every argument ends as launched. -/
theorem run : θ_run defs (onTc (τ := τ) (main (F := F))) ⟨m, fun _ => 0, ρ⟩ (fun r => ∀ c : Dev nD,
      r.2.mem ((c.tc : Thread nD τ).loc main_v48) = W6 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v48 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.Result

end
-- ==== Proof.LibDenseRows.lean ====
/-
  Row-wise dense algebra read at an index given by coordinates, at the ideal values: a plain two-dimensional
  contraction `[M, K] · [K, N]` (the kernel's matrix product into a zero accumulator and the host's `dot_general`) as a sum
  over `k : Fin K` of the left operand's row times the right operand's column; a bias vector `[N]` laid along every row of
  `[M, N]` (both spellings: cast to one row then broadcast, and two `broadcast_in_dim`s); a concatenation of two blocks side
  by side along the columns; and a sum along the columns of `[M, N]` (the lane reduction and the host's `reduce`), plain
  and laid back out as a column `[M, 1]` that is broadcast over the columns.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.DenseRows

open Idealize.ShloMosaic Idealize.ShloMosaic.ValueIdx
open scoped BigOperators

/-! ## A plain contraction `[M, K] · [K, N]` -/

/-- For dimension numbers that contract the left operand's columns with the right operand's rows and keep the left rows and
    the right columns in place, the sum over the contraction index at `(r, c)` is the sum over `k : Fin K` of the left
    operand at `(r, k)` times the right operand at `(k, c)`. -/
theorem sum_contr_plain {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : (⟨2, ![M, K]⟩ : Shape).Idx → EReal) (W : (⟨2, ![K, N]⟩ : Shape).Idx → EReal) (r : Fin M) (c : Fin N) :
    ∑ k : D.contr.Idx, A (D.lhsIdx (ix2 r c) k) * W (D.rhsIdx (ix2 r c) k) = ∑ k : Fin K, A (ix2 r k) * W (ix2 k c) := by
  rw [← Equiv.sum_comp (contrEquiv1 D K hrank hsize).symm]
  refine Finset.sum_congr rfl fun k _ => ?_
  have e1 : D.lhsIdx (ix2 r c) ((contrEquiv1 D K hrank hsize).symm k) = ix2 r k := by
    funext a; apply Fin.ext
    match a with
    | ⟨0, _⟩ => exact hl0 _ _
    | ⟨1, _⟩ => exact (D.lhsIdx_val_of_single hl _ _).trans (contrEquiv1_symm_val D K hrank hsize k)
  have e2 : D.rhsIdx (ix2 r c) ((contrEquiv1 D K hrank hsize).symm k) = ix2 k c := by
    funext a; apply Fin.ext
    match a with
    | ⟨0, _⟩ => exact (D.rhsIdx_val_of_single hr _ _).trans (contrEquiv1_symm_val D K hrank hsize k)
    | ⟨1, _⟩ => exact hr1 _ _
  rw [e1, e2]

/-- The kernel's matrix product into the zero accumulator, at `(r, c)`. -/
theorem matmul_zero_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    matmul D none A W (constant (F := Ideal) ⟨2, ![M, N]⟩ .f32 0x00000000#32) (ix2 r c) = ∑ k : Fin K, A (ix2 r k) * W (ix2 k c) :=
  (Ideal.matmul_constant_zero_apply D none A W (ix2 r c)).trans (sum_contr_plain D hl hr hrank hsize hl0 hr1 A W r c)

/-- The host's `dot_general` with the same dimension numbers, at `(r, c)`. -/
theorem dotGeneral_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    Host.dotGeneral D none A W (ix2 r c) = ∑ k : Fin K, A (ix2 r k) * W (ix2 k c) :=
  (Ideal.dotGeneral_apply D none .single A W (ix2 r c)).trans (sum_contr_plain D hl hr hrank hsize hl0 hr1 A W r c)

/-! ## A bias vector along every row -/

variable {α : Type}

/-- A vector `[N]` cast to one row `[1, N]` and broadcast down `M` rows reads, at `(r, c)`, the vector at `c`. -/
theorem rowBias_cast_apply {M N : ℕ} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (c : Fin N) :
    broadcastTo ⟨2, ![M, N]⟩ (shapeCast ⟨2, ![1, N]⟩ b h1) h2 (ix2 r c) = b (ix1 c) :=
  (broadcastTo_1b_ab_apply _ h2 r c).trans (shapeCast_a_1a_apply b h1 0 c)

/-- A vector `[N]` placed on axis 1 of `[1, N]` reads, at `(u, c)`, the vector at `c`. -/
theorem broadcastInDim_a_1a_apply {N : ℕ} (b : (⟨1, ![N]⟩ : Shape).Idx → α)
    (h : (⟨1, ![N]⟩ : Shape).BroadcastsInDim ⟨2, ![1, N]⟩ ![1]) (u : Fin 1) (c : Fin N) :
    broadcastInDim ⟨2, ![1, N]⟩ ![1] h b (ix2 u c) = b (ix1 c) := by
  refine broadcastInDim_apply ![1] h b (ix2 u c) (ix1 c) fun a => ?_
  match a with
  | ⟨0, _⟩ =>
    show c.val = if N = 1 then 0 else c.val
    split
    · have := c.isLt; omega
    · rfl

/-- The host's spelling of the same: two `broadcast_in_dim`s, `[N]` to `[1, N]` to `[M, N]`. -/
theorem rowBias_inDim_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) :=
  (broadcastInDim_oneRow_apply h2 _ r c).trans (broadcastInDim_a_1a_apply b h1 0 c)

/-! ## Two blocks side by side -/

/-- Two blocks `[M, A]` and `[M, B]` concatenated along the columns: a column left of `A` reads the first block. -/
theorem concat_cols_left {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : k.val < A) :
    concatenate ⟨2, ![M, C]⟩ (1 : Fin 2) [⟨⟨2, ![M, A]⟩, x⟩, ⟨⟨2, ![M, B]⟩, y⟩] h (ix2 r k) = x (ix2 r ⟨k.val, hk⟩) :=
  concatenate_pair_apply_left (1 : Fin 2) x y h (ix2 r k) rfl (ix2 r ⟨k.val, hk⟩) fun b => by
    match b with
    | ⟨0, _⟩ => rfl
    | ⟨1, _⟩ => rfl

/-- … and a column from `A` on reads the second block, `A` columns to the left. -/
theorem concat_cols_right {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : A ≤ k.val)
    (hk' : k.val - A < B) :
    concatenate ⟨2, ![M, C]⟩ (1 : Fin 2) [⟨⟨2, ![M, A]⟩, x⟩, ⟨⟨2, ![M, B]⟩, y⟩] h (ix2 r k) = y (ix2 r ⟨k.val - A, hk'⟩) :=
  concatenate_pair_apply_right (1 : Fin 2) x y h (ix2 r k) rfl rfl (ix2 r ⟨k.val - A, hk'⟩)
    (fun b hb => by
      match b with
      | ⟨0, _⟩ => rfl
      | ⟨1, _⟩ => exact absurd rfl hb)
    (by show k.val - A + A = k.val; omega)

/-! ## A sum along the columns -/

/-- The lane reduction of `[M, N]` along its columns from the zero word, at row `r`. -/
theorem laneSum_apply {M N : ℕ} (src : FVec Ideal ⟨2, ![M, N]⟩ .f32) (h : (⟨2, ![M, N]⟩ : Shape).Reduces [(1 : Fin 2)] ⟨1, ![M]⟩)
    (hφ : FKind.Formats .f32) (hacc : (0x00000000#32 : BitVec 32) = FKind.add.neutral .f32 hφ)
    (hlift : ∀ (r : Fin M) (k : Fin N), h.lift (ix1 r) k = ix2 r k) (r : Fin M) :
    multiReduction .add [(1 : Fin 2)] ⟨1, ![M]⟩ src 0x00000000#32 h hφ hacc (ix1 r) = ∑ k : Fin N, src (ix2 r k) :=
  (Ideal.multiReduction_add_single src 0x00000000#32 h hφ hacc (ix1 r)).trans
    (Finset.sum_congr rfl fun k _ => congrArg src (hlift r k))

/-- The host's `reduce` with `add` along the columns from an initial scalar, at row `r`. -/
theorem hostRowSum_apply {M N : ℕ} (x : FVec Ideal ⟨2, ![M, N]⟩ .f32) (init : (⟨0, ![]⟩ : Shape).Idx → Ideal .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hlift : ∀ (r : Fin M) (k : Fin N), h.lift (ix1 r) k = ix2 r k) (r : Fin M) :
    Host.reduceAdd x init h' hu (ix1 r) = init (Shape.Idx.first hu) + ∑ k : Fin N, x (ix2 r k) :=
  (hostReduceAdd_apply x init h' hu (ix1 r)).trans
    ((Ideal.hostReduceAdd_single h' h x _ (ix1 r)).trans
      (congrArg (init (Shape.Idx.first hu) + ·) (Finset.sum_congr rfl fun k _ => congrArg x (hlift r k))))

/-- A vector `[M]` placed on axis 0 of `[M, 1]` reads, at `(r, u)`, the vector at `r`. -/
theorem broadcastInDim_a_a1_apply {M : ℕ} (v : (⟨1, ![M]⟩ : Shape).Idx → α)
    (h : (⟨1, ![M]⟩ : Shape).BroadcastsInDim ⟨2, ![M, 1]⟩ ![0]) (r : Fin M) (u : Fin 1) :
    broadcastInDim ⟨2, ![M, 1]⟩ ![0] h v (ix2 r u) = v (ix1 r) := by
  refine broadcastInDim_apply ![0] h v (ix2 r u) (ix1 r) fun a => ?_
  match a with
  | ⟨0, _⟩ =>
    show r.val = if M = 1 then 0 else r.val
    split
    · have := r.isLt; omega
    · rfl

/-- A column `[M, 1]` laid over the columns of `[M, N]` by `broadcast_in_dim` reads, at `(r, c)`, the column at row `r`. -/
theorem broadcastInDim_a1_ab_apply {M N : ℕ} (v : (⟨2, ![M, 1]⟩ : Shape).Idx → α)
    (h : (⟨2, ![M, 1]⟩ : Shape).BroadcastsInDim ⟨2, ![M, N]⟩ ![0, 1]) (r : Fin M) (c : Fin N) :
    broadcastInDim ⟨2, ![M, N]⟩ ![0, 1] h v (ix2 r c) = v (ix2 r (0 : Fin 1)) := by
  refine broadcastInDim_apply ![0, 1] h v (ix2 r c) (ix2 r (0 : Fin 1)) fun a => ?_
  match a with
  | ⟨0, _⟩ =>
    show r.val = if M = 1 then 0 else r.val
    split
    · have := r.isLt; omega
    · rfl
  | ⟨1, _⟩ => rfl

end Cert.DenseRows

end
-- ==== Proof.SageSpec.lean ====
/-
  One layer of the graph convolution, stated once, at the ideal values and at coordinates.

  A layer takes the node features `h : [M, K]`, the neighbour means `mean : [M, K]`, two weight matrices
  `Ws, Wn : [K, N]` and a bias laid out as one row `B : [1, N]`. Its value at row `r` and column `c` is

      (∑ k, h (r, k) · Ws (k, c)  +  ∑ k, mean (r, k) · Wn (k, c))  +  B (0, c),

  the two contractions added first and the bias last. The rectified layer is the maximum of that number and zero.
  The host program spells a layer with two `dot_general`s, two sums and the bias vector `[N]` broadcast along the rows;
  read at `(r, c)` that is the same number, the bias vector laid out as its row.
-/
import Idealize.ShloMosaic.Lib.ValueIdx
import Idealize.ShloMosaic.Lib.ValueLayout
import Idealize.ShloMosaic.Lib.Pipeline.Value
import Idealize.ShloMosaic.PureOps.Ideal.Laws
import proofs.«115271_j49486613185053_1_alg».proof.Proof.LibDenseRows

noncomputable section

namespace Cert.Sage

open Idealize.ShloMosaic Idealize.ShloMosaic.ValueIdx
open scoped BigOperators

/-- The zero a rectifier compares with: the extended real the all-zero word encodes. -/
abbrev zeroWord : EReal := Ideal.ofBits .f32 0x00000000#32

/-- One layer at row `r`, column `c`: the features' row against `Ws`'s column plus the means' row against `Wn`'s
    column, then the bias row's entry. -/
def affineAt {M K N : ℕ} (h mean : (⟨2, ![M, K]⟩ : Shape).Idx → EReal) (Ws Wn : (⟨2, ![K, N]⟩ : Shape).Idx → EReal)
    (B : (⟨2, ![1, N]⟩ : Shape).Idx → EReal) (r : Fin M) (c : Fin N) : EReal :=
  ((∑ k : Fin K, h (ix2 r k) * Ws (ix2 k c)) + ∑ k : Fin K, mean (ix2 r k) * Wn (ix2 k c)) + B (ix2 (0 : Fin 1) c)

/-- The layer as an array `[M, N]`. -/
def affine {M K N : ℕ} (h mean : (⟨2, ![M, K]⟩ : Shape).Idx → EReal) (Ws Wn : (⟨2, ![K, N]⟩ : Shape).Idx → EReal)
    (B : (⟨2, ![1, N]⟩ : Shape).Idx → EReal) : (⟨2, ![M, N]⟩ : Shape).Idx → EReal :=
  fun j => affineAt h mean Ws Wn B (j 0) (j 1)

/-- The rectified layer as an array `[M, N]`. -/
def rectified {M K N : ℕ} (h mean : (⟨2, ![M, K]⟩ : Shape).Idx → EReal) (Ws Wn : (⟨2, ![K, N]⟩ : Shape).Idx → EReal)
    (B : (⟨2, ![1, N]⟩ : Shape).Idx → EReal) : (⟨2, ![M, N]⟩ : Shape).Idx → EReal :=
  fun j => max (affineAt h mean Ws Wn B (j 0) (j 1)) zeroWord

theorem affine_ix2 {M K N : ℕ} (h mean : (⟨2, ![M, K]⟩ : Shape).Idx → EReal) (Ws Wn : (⟨2, ![K, N]⟩ : Shape).Idx → EReal)
    (B : (⟨2, ![1, N]⟩ : Shape).Idx → EReal) (r : Fin M) (c : Fin N) :
    affine h mean Ws Wn B (ix2 r c) = affineAt h mean Ws Wn B r c := rfl

theorem rectified_ix2 {M K N : ℕ} (h mean : (⟨2, ![M, K]⟩ : Shape).Idx → EReal) (Ws Wn : (⟨2, ![K, N]⟩ : Shape).Idx → EReal)
    (B : (⟨2, ![1, N]⟩ : Shape).Idx → EReal) (r : Fin M) (c : Fin N) :
    rectified h mean Ws Wn B (ix2 r c) = max (affineAt h mean Ws Wn B r c) zeroWord := rfl

/-- A layer's value at `(r, c)` reads only row `r` of the features and of the means, column `c` of the two weight matrices and
    entry `c` of the bias row: two layers that agree there agree at `(r, c)` (the rows may sit in arrays of different
    heights, as a block's row sits in the whole array). -/
theorem affineAt_congr {M M' K N : ℕ} {h mean : (⟨2, ![M, K]⟩ : Shape).Idx → EReal} {h' mean' : (⟨2, ![M', K]⟩ : Shape).Idx → EReal}
    {Ws Wn Ws' Wn' : (⟨2, ![K, N]⟩ : Shape).Idx → EReal} {B B' : (⟨2, ![1, N]⟩ : Shape).Idx → EReal}
    {r : Fin M} {r' : Fin M'} {c c' : Fin N}
    (hh : ∀ k : Fin K, h (ix2 r k) = h' (ix2 r' k)) (hm : ∀ k : Fin K, mean (ix2 r k) = mean' (ix2 r' k))
    (hs : ∀ k : Fin K, Ws (ix2 k c) = Ws' (ix2 k c')) (hn : ∀ k : Fin K, Wn (ix2 k c) = Wn' (ix2 k c'))
    (hb : B (ix2 (0 : Fin 1) c) = B' (ix2 (0 : Fin 1) c')) :
    affineAt h mean Ws Wn B r c = affineAt h' mean' Ws' Wn' B' r' c' := by
  unfold affineAt
  rw [hb, Finset.sum_congr rfl fun k _ => congrArg₂ (· * ·) (hh k) (hs k),
    Finset.sum_congr rfl fun k _ => congrArg₂ (· * ·) (hm k) (hn k)]

/-! ## The host's spelling of a layer -/

/-- Two `dot_general`s that contract the columns of the left operand with the rows of the right one, added, then the bias
    vector `[N]` broadcast to one row and down the rows, added: at `(r, c)` this is the layer with the bias vector cast to
    its row. -/
theorem hostLayer_apply {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (h mean : FVec Ideal ⟨2, ![M, K]⟩ .f32) (Ws Wn : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) (r : Fin M) (c : Fin N) :
    addf (addf (Host.dotGeneral D none h Ws) (Host.dotGeneral D none mean Wn))
        (broadcastInDim ⟨2, ![M, N]⟩ ![0, 1] h2 (broadcastInDim ⟨2, ![1, N]⟩ ![1] h1 b)) (ix2 r c)
      = affineAt h mean Ws Wn (shapeCast ⟨2, ![1, N]⟩ b hc) r c := by
  show (Host.dotGeneral D none h Ws (ix2 r c) + Host.dotGeneral D none mean Wn (ix2 r c))
      + broadcastInDim ⟨2, ![M, N]⟩ ![0, 1] h2 (broadcastInDim ⟨2, ![1, N]⟩ ![1] h1 b) (ix2 r c) = _
  rw [Cert.DenseRows.dotGeneral_plain_apply D hl hr hrank hsize hl0 hr1 h Ws r c,
    Cert.DenseRows.dotGeneral_plain_apply D hl hr hrank hsize hl0 hr1 mean Wn r c,
    Cert.DenseRows.rowBias_inDim_apply b h1 h2 r c]
  unfold affineAt
  rw [shapeCast_a_1a_apply b hc 0 c]

end Cert.Sage

end
-- ==== Proof.Region2.lean ====
/-
  The third layer's region. Its grid has twenty points; point `t` stages rows `5000·t … 5000·t + 4999` of the features and
  of the neighbour means, the two whole weight matrices `[128, 64]` and the whole bias row `[1, 64]`, and stores the layer of
  those blocks (no rectifier after the last layer) into the same rows of the output `[100000, 64]`. So the output array after
  the region is the layer of the five arrays the region finds, whatever they hold.
-/
import proofs.«115271_j49486613185053_1_alg».proof.Proof.Gen.KernelIdeal.Frame
import proofs.«115271_j49486613185053_1_alg».proof.Proof.SageSpec
import Idealize.ShloMosaic.Lib.Pipeline.Value
import Idealize.ShloMosaic.Lib.ValueIdx
import Idealize.ShloMosaic.Lib.ValueLayout

set_option maxRecDepth 16384

noncomputable section

namespace Cert.KernelIdeal.Layer2

open Idealize.ShloMosaic Idealize.ShloMosaic.TcCoe Idealize.SL.Sem Idealize.ShloMosaic.ValueIdx
open Cert.KernelIdeal Cert.KernelIdeal.Gen
open Idealize.ShloMosaic.Pipeline (Dat)

/-! ## The contraction's index maps keep the output's row on the left and its column on the right -/

theorem dot_lhs_row (j : S5000x64.Idx) (k : dot_S5000x128_S128x64_S5000x64_1_0_0_1_n_n.contr.Idx) :
    (dot_S5000x128_S128x64_S5000x64_1_0_0_1_n_n.lhsIdx j k (0 : Fin 2)).val = (j (0 : Fin 2)).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl

theorem dot_rhs_col (j : S5000x64.Idx) (k : dot_S5000x128_S128x64_S5000x64_1_0_0_1_n_n.contr.Idx) :
    (dot_S5000x128_S128x64_S5000x64_1_0_0_1_n_n.rhsIdx j k (1 : Fin 2)).val = (j (1 : Fin 2)).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-! ## What the body stores, at row `r` and column `c` of the block -/

theorem stored_apply (x0 x1 : Vec Ideal S5000x128 .f32) (x2 x3 : Vec Ideal S128x64 .f32) (x4 : Vec Ideal S1x64 .f32)
    (r : Fin 5000) (c : Fin 64) :
    k2_pay1 x0 x1 x2 x3 x4 (ix2 r c) = Cert.Sage.affineAt x0 x1 x2 x3 x4 r c := by
  unfold k2_pay1
  simp only [addf_apply, shapeCast_self]
  have e1 := Cert.DenseRows.matmul_zero_plain_apply (M := 5000) (K := 128) (N := 64) dot_S5000x128_S128x64_S5000x64_1_0_0_1_n_n
    rfl rfl rfl rfl dot_lhs_row dot_rhs_col (truncf FTy.bf16 x0 bitsLt_bf16_f32) (truncf FTy.bf16 x2 bitsLt_bf16_f32) r c
  have e2 := Cert.DenseRows.matmul_zero_plain_apply (M := 5000) (K := 128) (N := 64) dot_S5000x128_S128x64_S5000x64_1_0_0_1_n_n
    rfl rfl rfl rfl dot_lhs_row dot_rhs_col (truncf FTy.bf16 x1 bitsLt_bf16_f32) (truncf FTy.bf16 x3 bitsLt_bf16_f32) r c
  have e3 := broadcastTo_1b_ab_apply (a := 5000) (b := 64) x4 broadcasts_S1x64_S5000x64 r c
  exact congrArg₂ (· + ·) (congrArg₂ (· + ·) e1 e2) e3

/-- The same over a whole index of the block. -/
theorem stored_block (x0 x1 : Vec Ideal S5000x128 .f32) (x2 x3 : Vec Ideal S128x64 .f32) (x4 : Vec Ideal S1x64 .f32)
    (j : S5000x64.Idx) :
    k2_pay1 x0 x1 x2 x3 x4 j = Cert.Sage.affineAt x0 x1 x2 x3 x4 (j 0) (j 1) :=
  (congrArg (k2_pay1 x0 x1 x2 x3 x4) (eq_ix2 j)).trans (stored_apply x0 x1 x2 x3 x4 (j 0) (j 1))

/-! ## From the blocks to the array -/

section Blocks

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: the features', the means' and the output's blocks sit at block row `t`, column block 0; the
    weights' and the bias's blocks are the whole arrays. -/
theorem index_maps : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (1 : Fin 2) = 0 :=
  (by decide +kernel : ∀ t : Fin grid2.N, _)

/-- Every block row of the output is some point's. -/
theorem index_onto : ∀ q : Fin 20, ∃ t : Fin cfg2.N, win2_5.index t = ![q.val, 0] :=
  (by decide +kernel : ∀ q : Fin 20, ∃ t : Fin grid2.N, win2_5.index t = ![q.val, 0])

/-- What point `t` stores at an index of its block is the layer of the arrays at that index's place in the output array. -/
theorem block_eq (c : Dev nD) (t : Fin cfg2.N) (j : S5000x64.Idx) :
    k2_pay1 (iblk2 V c 0 t) (iblk2 V c 1 t) (iblk2 V c 2 t) (iblk2 V c 3 t) (iblk2 V c 4 t) j
      = Cert.Sage.affine (V c main_v34) (V c main_v46) (V c main_arg9) (V c main_arg10) (V c main_v47)
          (((cfg2.win 5).blk t).view.emb j) := by
  obtain ⟨e0, e1, e2, e3, e4, e5, e6, e7, e8, e9, e10⟩ := index_maps t
  refine (stored_block (iblk2 V c 0 t) (iblk2 V c 1 t) (iblk2 V c 2 t) (iblk2 V c 3 t) (iblk2 V c 4 t) j).trans ?_
  refine Cert.Sage.affineAt_congr (fun k => ?_) (fun k => ?_) (fun k => ?_) (fun k => ?_) ?_
  · show V c main_v34 (((cfg2.win 0).blk t).view.emb (ix2 (j 0) k)) = V c main_v34 (ix2 ((((cfg2.win 5).blk t).view.emb j) 0) k)
    refine congrArg (V c main_v34) (funext fun a => Fin.ext ?_)
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 128 + 1 * k.val = k.val; omega
  · show V c main_v46 (((cfg2.win 1).blk t).view.emb (ix2 (j 0) k)) = V c main_v46 (ix2 ((((cfg2.win 5).blk t).view.emb j) 0) k)
    refine congrArg (V c main_v46) (funext fun a => Fin.ext ?_)
    match a with
    | ⟨0, _⟩ => show win2_1.index t (0 : Fin 2) * 5000 + 1 * (j 0).val = win2_5.index t (0 : Fin 2) * 5000 + 1 * (j 0).val; omega
    | ⟨1, _⟩ => show win2_1.index t (1 : Fin 2) * 128 + 1 * k.val = k.val; omega
  · show V c main_arg9 (((cfg2.win 2).blk t).view.emb (ix2 k (j 1))) = V c main_arg9 (ix2 k ((((cfg2.win 5).blk t).view.emb j) 1))
    refine congrArg (V c main_arg9) (funext fun a => Fin.ext ?_)
    match a with
    | ⟨0, _⟩ => show win2_2.index t (0 : Fin 2) * 128 + 1 * k.val = k.val; omega
    | ⟨1, _⟩ => show win2_2.index t (1 : Fin 2) * 64 + 1 * (j 1).val = win2_5.index t (1 : Fin 2) * 64 + 1 * (j 1).val; omega
  · show V c main_arg10 (((cfg2.win 3).blk t).view.emb (ix2 k (j 1))) = V c main_arg10 (ix2 k ((((cfg2.win 5).blk t).view.emb j) 1))
    refine congrArg (V c main_arg10) (funext fun a => Fin.ext ?_)
    match a with
    | ⟨0, _⟩ => show win2_3.index t (0 : Fin 2) * 128 + 1 * k.val = k.val; omega
    | ⟨1, _⟩ => show win2_3.index t (1 : Fin 2) * 64 + 1 * (j 1).val = win2_5.index t (1 : Fin 2) * 64 + 1 * (j 1).val; omega
  · show V c main_v47 (((cfg2.win 4).blk t).view.emb (ix2 (0 : Fin 1) (j 1))) = V c main_v47 (ix2 (0 : Fin 1) ((((cfg2.win 5).blk t).view.emb j) 1))
    refine congrArg (V c main_v47) (funext fun a => Fin.ext ?_)
    match a with
    | ⟨0, _⟩ => show win2_4.index t (0 : Fin 2) * 1 + 1 * 0 = 0; omega
    | ⟨1, _⟩ => show win2_4.index t (1 : Fin 2) * 64 + 1 * (j 1).val = win2_5.index t (1 : Fin 2) * 64 + 1 * (j 1).val; omega

/-- What point `t` writes back is block `t` of the layer of the arrays the region finds. -/
theorem flushed_eq (c : Dev nD) (t : Fin cfg2.N) :
    (dat2 V c).flushed 5 t = ((cfg2.win 5).blk t).view.read (Elt Ideal)
      (Cert.Sage.affine (V c main_v34) (V c main_v46) (V c main_arg9) (V c main_arg10) (V c main_v47)) := by
  show (cfg2.win 5).cut (grid2.coords t) ((dat2 V c).after 5 t) = _
  rw [after2_5]
  unfold out2_5
  rw [View.canon_unit_zero zero_offsets]
  simp only [View.ld_unit_zero (S := S5000x128) zero_offsets, View.ld_unit_zero (S := S128x64) zero_offsets,
    View.ld_unit_zero (S := S1x64) zero_offsets]
  funext j
  exact block_eq V c t j

/-- An index of the output array is in point `t`'s block iff each coordinate is in the block's range on its axis. -/
theorem mem_block (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v48).slice (win2_5.rect t)).set ↔ _
  rw [View.set_slice_whole, Rect.mem_set_unit]
  exact Iff.rfl

/-- The twenty blocks cover the output array: row `ρ` is in the block of the point at block row `ρ / 5000`. -/
theorem covered (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  obtain ⟨t, ht⟩ := index_onto ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_block]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

/-- The output array after the region: the layer of the features, the means, the two weight matrices and the bias row as
    the region finds them. -/
theorem final (c : Dev nD) :
    (dat2 V c).arrAt 5 cfg2.N
      = Cert.Sage.affine (V c main_v34) (V c main_v46) (V c main_arg9) (V c main_arg10) (V c main_v47) :=
  (dat2 V c).arrAt_eq_of_cover 5 _ (fun t _ => flushed_eq V c t) (covered)

end Blocks

end Cert.KernelIdeal.Layer2

end
-- ==== Proof.SageHost.lean ====
/-
  The part of the network both programs compute on the host, named once, and the three layers composed.

  `degColumn dst` is the in-degree of every node, at least one, as a column `[100000, 1]`: ones scattered and added along the
  edges' destinations, the maximum with one. `neighbourMean h src dst` is, for every node, the sum of the features `h` of the
  sources of its incoming edges (a gather along `src`, negative indices wrapped, then a scatter-add along `dst`) divided by
  that degree. `biasRow` lays a bias vector out as one row. The network is three layers, each fed the previous layer's
  output and its neighbour means, the first two rectified.
-/
import proofs.«115271_j49486613185053_1_alg».proof.KernelIdeal
import proofs.«115271_j49486613185053_1_alg».proof.Proof.Gen.KernelIdeal
import proofs.«115271_j49486613185053_1_alg».proof.Proof.SageSpec

noncomputable section

namespace Cert.Sage

open Idealize.ShloMosaic Cert.KernelIdeal Cert.KernelIdeal.Facts₀ Cert.KernelIdeal.Facts

/-- Every node's in-degree, at least one, as a column. -/
def degColumn (dst : (⟨S1600000, .i32⟩ : BufTy).Contents (Elt Ideal)) : (⟨S100000x1, .f32⟩ : BufTy).Contents (Elt Ideal) :=
  broadcastInDim S100000x1 ![0] bcast_S100000_S100000x1_0
    (maximumf
      (Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0 dst)
        (broadcastInDim S1600000 ![] bcast_S_S1600000 (constant (F := Ideal) S_ .f32 0x3F800000#32)))
      (broadcastInDim S100000 ![] bcast_S_S100000 (constant (F := Ideal) S_ .f32 0x3F800000#32)))

/-- Every node's mean of its in-neighbours' features. -/
def neighbourMean (h : (⟨S100000x128, .f32⟩ : BufTy).Contents (Elt Ideal))
    (src dst : (⟨S1600000, .i32⟩ : BufTy).Contents (Elt Ideal)) : (⟨S100000x128, .f32⟩ : BufTy).Contents (Elt Ideal) :=
  Host.divf
    (Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (Host.gather gather_S100000x128_S1600000x1_S1600000x128_1_0_n_n_0_1_1128 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x128 ![0, 1] bcast_S100000x1_S100000x128_0_1 (degColumn dst))

/-- A bias vector of 128 entries as one row. -/
def biasRow128 (b : (⟨S128, .f32⟩ : BufTy).Contents (Elt Ideal)) : (⟨S1x128, .f32⟩ : BufTy).Contents (Elt Ideal) :=
  shapeCast S1x128 b shapeCasts_S128_S1x128

/-- A bias vector of 64 entries as one row. -/
def biasRow64 (b : (⟨S64, .f32⟩ : BufTy).Contents (Elt Ideal)) : (⟨S1x64, .f32⟩ : BufTy).Contents (Elt Ideal) :=
  shapeCast S1x64 b shapeCasts_S64_S1x64

/-- The first layer's output. -/
def hidden1 (x : (⟨S100000x128, .f32⟩ : BufTy).Contents (Elt Ideal)) (src dst : (⟨S1600000, .i32⟩ : BufTy).Contents (Elt Ideal))
    (Ws0 Wn0 : (⟨S128x128, .f32⟩ : BufTy).Contents (Elt Ideal)) (b0 : (⟨S128, .f32⟩ : BufTy).Contents (Elt Ideal)) :
    (⟨S100000x128, .f32⟩ : BufTy).Contents (Elt Ideal) :=
  rectified (M := 100000) (K := 128) (N := 128) x (neighbourMean x src dst) Ws0 Wn0 (biasRow128 b0)

/-- The second layer's output. -/
def hidden2 (x : (⟨S100000x128, .f32⟩ : BufTy).Contents (Elt Ideal)) (src dst : (⟨S1600000, .i32⟩ : BufTy).Contents (Elt Ideal))
    (Ws0 Wn0 : (⟨S128x128, .f32⟩ : BufTy).Contents (Elt Ideal)) (b0 : (⟨S128, .f32⟩ : BufTy).Contents (Elt Ideal))
    (Ws1 Wn1 : (⟨S128x128, .f32⟩ : BufTy).Contents (Elt Ideal)) (b1 : (⟨S128, .f32⟩ : BufTy).Contents (Elt Ideal)) :
    (⟨S100000x128, .f32⟩ : BufTy).Contents (Elt Ideal) :=
  rectified (M := 100000) (K := 128) (N := 128) (hidden1 x src dst Ws0 Wn0 b0)
    (neighbourMean (hidden1 x src dst Ws0 Wn0 b0) src dst) Ws1 Wn1 (biasRow128 b1)

/-- The network's output. -/
def output (x : (⟨S100000x128, .f32⟩ : BufTy).Contents (Elt Ideal)) (src dst : (⟨S1600000, .i32⟩ : BufTy).Contents (Elt Ideal))
    (Ws0 Wn0 : (⟨S128x128, .f32⟩ : BufTy).Contents (Elt Ideal)) (b0 : (⟨S128, .f32⟩ : BufTy).Contents (Elt Ideal))
    (Ws1 Wn1 : (⟨S128x128, .f32⟩ : BufTy).Contents (Elt Ideal)) (b1 : (⟨S128, .f32⟩ : BufTy).Contents (Elt Ideal))
    (Ws2 Wn2 : (⟨S128x64, .f32⟩ : BufTy).Contents (Elt Ideal)) (b2 : (⟨S64, .f32⟩ : BufTy).Contents (Elt Ideal)) :
    (⟨S100000x64, .f32⟩ : BufTy).Contents (Elt Ideal) :=
  affine (M := 100000) (K := 128) (N := 64) (hidden2 x src dst Ws0 Wn0 b0 Ws1 Wn1 b1)
    (neighbourMean (hidden2 x src dst Ws0 Wn0 b0 Ws1 Wn1 b1) src dst) Ws2 Wn2 (biasRow64 b2)

end Cert.Sage

end
-- ==== Proof.Region1.lean ====
/-
  The second layer's region. Its grid has twenty points; point `t` stages rows `5000·t … 5000·t + 4999` of the features and
  of the neighbour means, the two whole weight matrices and the whole bias row, and stores the rectified layer of those
  blocks into the same rows of the output. So the output array after the region is the rectified layer of the five arrays
  the region finds, whatever they hold.
-/
import proofs.«115271_j49486613185053_1_alg».proof.Proof.Gen.KernelIdeal.Frame
import proofs.«115271_j49486613185053_1_alg».proof.Proof.SageSpec
import Idealize.ShloMosaic.Lib.Pipeline.Value
import Idealize.ShloMosaic.Lib.ValueIdx
import Idealize.ShloMosaic.Lib.ValueLayout

set_option maxRecDepth 16384

noncomputable section

namespace Cert.KernelIdeal.Layer1

open Idealize.ShloMosaic Idealize.ShloMosaic.TcCoe Idealize.SL.Sem Idealize.ShloMosaic.ValueIdx
open Cert.KernelIdeal Cert.KernelIdeal.Gen
open Idealize.ShloMosaic.Pipeline (Dat)

/-! ## The contraction's index maps keep the output's row on the left and its column on the right -/

theorem dot_lhs_row (j : S5000x128.Idx) (k : dot_S5000x128_S128x128_S5000x128_1_0_0_1_n_n.contr.Idx) :
    (dot_S5000x128_S128x128_S5000x128_1_0_0_1_n_n.lhsIdx j k (0 : Fin 2)).val = (j (0 : Fin 2)).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem dot_rhs_col (j : S5000x128.Idx) (k : dot_S5000x128_S128x128_S5000x128_1_0_0_1_n_n.contr.Idx) :
    (dot_S5000x128_S128x128_S5000x128_1_0_0_1_n_n.rhsIdx j k (1 : Fin 2)).val = (j (1 : Fin 2)).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-! ## What the body stores, at row `r` and column `c` of the block -/

theorem stored_apply (x0 x1 : Vec Ideal S5000x128 .f32) (x2 x3 : Vec Ideal S128x128 .f32) (x4 : Vec Ideal S1x128 .f32)
    (r : Fin 5000) (c : Fin 128) :
    k1_pay1 x0 x1 x2 x3 x4 (ix2 r c) = max (Cert.Sage.affineAt x0 x1 x2 x3 x4 r c) Cert.Sage.zeroWord := by
  unfold k1_pay1
  simp only [maximumf_apply, addf_apply, broadcast_apply, shapeCast_self]
  have e1 := Cert.DenseRows.matmul_zero_plain_apply (M := 5000) (K := 128) (N := 128) dot_S5000x128_S128x128_S5000x128_1_0_0_1_n_n
    rfl rfl rfl rfl dot_lhs_row dot_rhs_col (truncf FTy.bf16 x0 bitsLt_bf16_f32) (truncf FTy.bf16 x2 bitsLt_bf16_f32) r c
  have e2 := Cert.DenseRows.matmul_zero_plain_apply (M := 5000) (K := 128) (N := 128) dot_S5000x128_S128x128_S5000x128_1_0_0_1_n_n
    rfl rfl rfl rfl dot_lhs_row dot_rhs_col (truncf FTy.bf16 x1 bitsLt_bf16_f32) (truncf FTy.bf16 x3 bitsLt_bf16_f32) r c
  have e3 := broadcastTo_1b_ab_apply (a := 5000) (b := 128) x4 broadcasts_S1x128_S5000x128 r c
  exact congrArg₂ max (congrArg₂ (· + ·) (congrArg₂ (· + ·) e1 e2) e3) rfl

/-- The same over a whole index of the block. -/
theorem stored_block (x0 x1 : Vec Ideal S5000x128 .f32) (x2 x3 : Vec Ideal S128x128 .f32) (x4 : Vec Ideal S1x128 .f32)
    (j : S5000x128.Idx) :
    k1_pay1 x0 x1 x2 x3 x4 j = max (Cert.Sage.affineAt x0 x1 x2 x3 x4 (j 0) (j 1)) Cert.Sage.zeroWord :=
  (congrArg (k1_pay1 x0 x1 x2 x3 x4) (eq_ix2 j)).trans (stored_apply x0 x1 x2 x3 x4 (j 0) (j 1))

/-! ## From the blocks to the array -/

section Blocks

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: the features', the means' and the output's blocks sit at block row `t`, column block 0; the
    weights' and the bias's blocks are the whole arrays. -/
theorem index_maps : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 :=
  (by decide +kernel : ∀ t : Fin grid1.N, _)

/-- Every block row of the output is some point's. -/
theorem index_onto : ∀ q : Fin 20, ∃ t : Fin cfg1.N, win1_5.index t = ![q.val, 0] :=
  (by decide +kernel : ∀ q : Fin 20, ∃ t : Fin grid1.N, win1_5.index t = ![q.val, 0])

/-- What point `t` stores at an index of its block is the rectified layer of the arrays at that index's place in the
    output array. -/
theorem block_eq (c : Dev nD) (t : Fin cfg1.N) (j : S5000x128.Idx) :
    k1_pay1 (iblk1 V c 0 t) (iblk1 V c 1 t) (iblk1 V c 2 t) (iblk1 V c 3 t) (iblk1 V c 4 t) j
      = Cert.Sage.rectified (V c main_v20) (V c main_v32) (V c main_arg6) (V c main_arg7) (V c main_v33)
          (((cfg1.win 5).blk t).view.emb j) := by
  obtain ⟨e0, e1, e2, e3, e4, e5, e6, e7, e8, e9, e10⟩ := index_maps t
  refine (stored_block (iblk1 V c 0 t) (iblk1 V c 1 t) (iblk1 V c 2 t) (iblk1 V c 3 t) (iblk1 V c 4 t) j).trans ?_
  refine congrArg (max · Cert.Sage.zeroWord) (Cert.Sage.affineAt_congr (fun k => ?_) (fun k => ?_) (fun k => ?_) (fun k => ?_) ?_)
  · show V c main_v20 (((cfg1.win 0).blk t).view.emb (ix2 (j 0) k)) = V c main_v20 (ix2 ((((cfg1.win 5).blk t).view.emb j) 0) k)
    refine congrArg (V c main_v20) (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * k.val = k.val; omega
  · show V c main_v32 (((cfg1.win 1).blk t).view.emb (ix2 (j 0) k)) = V c main_v32 (ix2 ((((cfg1.win 5).blk t).view.emb j) 0) k)
    refine congrArg (V c main_v32) (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 128 + 1 * k.val = k.val; omega
  · show V c main_arg6 (((cfg1.win 2).blk t).view.emb (ix2 k (j 1))) = V c main_arg6 (ix2 k ((((cfg1.win 5).blk t).view.emb j) 1))
    refine congrArg (V c main_arg6) (funext fun a => Fin.ext ?_)
    match a with
    | ⟨0, _⟩ => show win1_2.index t (0 : Fin 2) * 128 + 1 * k.val = k.val; omega
    | ⟨1, _⟩ => show win1_2.index t (1 : Fin 2) * 128 + 1 * (j 1).val = win1_5.index t (1 : Fin 2) * 128 + 1 * (j 1).val; omega
  · show V c main_arg7 (((cfg1.win 3).blk t).view.emb (ix2 k (j 1))) = V c main_arg7 (ix2 k ((((cfg1.win 5).blk t).view.emb j) 1))
    refine congrArg (V c main_arg7) (funext fun a => Fin.ext ?_)
    match a with
    | ⟨0, _⟩ => show win1_3.index t (0 : Fin 2) * 128 + 1 * k.val = k.val; omega
    | ⟨1, _⟩ => show win1_3.index t (1 : Fin 2) * 128 + 1 * (j 1).val = win1_5.index t (1 : Fin 2) * 128 + 1 * (j 1).val; omega
  · show V c main_v33 (((cfg1.win 4).blk t).view.emb (ix2 (0 : Fin 1) (j 1))) = V c main_v33 (ix2 (0 : Fin 1) ((((cfg1.win 5).blk t).view.emb j) 1))
    refine congrArg (V c main_v33) (funext fun a => Fin.ext ?_)
    match a with
    | ⟨0, _⟩ => show win1_4.index t (0 : Fin 2) * 1 + 1 * 0 = 0; omega
    | ⟨1, _⟩ => show win1_4.index t (1 : Fin 2) * 128 + 1 * (j 1).val = win1_5.index t (1 : Fin 2) * 128 + 1 * (j 1).val; omega

/-- What point `t` writes back is block `t` of the rectified layer of the arrays the region finds. -/
theorem flushed_eq (c : Dev nD) (t : Fin cfg1.N) :
    (dat1 V c).flushed 5 t = ((cfg1.win 5).blk t).view.read (Elt Ideal)
      (Cert.Sage.rectified (V c main_v20) (V c main_v32) (V c main_arg6) (V c main_arg7) (V c main_v33)) := by
  show (cfg1.win 5).cut (grid1.coords t) ((dat1 V c).after 5 t) = _
  rw [after1_5]
  unfold out1_5
  rw [View.canon_unit_zero zero_offsets]
  simp only [View.ld_unit_zero (S := S5000x128) zero_offsets, View.ld_unit_zero (S := S128x128) zero_offsets,
    View.ld_unit_zero (S := S1x128) zero_offsets]
  funext j
  exact block_eq V c t j

/-- An index of the output array is in point `t`'s block iff each coordinate is in the block's range on its axis. -/
theorem mem_block (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v34).slice (win1_5.rect t)).set ↔ _
  rw [View.set_slice_whole, Rect.mem_set_unit]
  exact Iff.rfl

/-- The twenty blocks cover the output array: row `ρ` is in the block of the point at block row `ρ / 5000`. -/
theorem covered (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := index_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_block]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The output array after the region: the rectified layer of the features, the means, the two weight matrices and the
    bias row as the region finds them. -/
theorem final (c : Dev nD) :
    (dat1 V c).arrAt 5 cfg1.N
      = Cert.Sage.rectified (V c main_v20) (V c main_v32) (V c main_arg6) (V c main_arg7) (V c main_v33) :=
  (dat1 V c).arrAt_eq_of_cover 5 _ (fun t _ => flushed_eq V c t) (covered)

end Blocks

end Cert.KernelIdeal.Layer1

end
-- ==== Proof.Region0.lean ====
/-
  The first layer's region. Its grid has twenty points; point `t` stages rows `5000·t … 5000·t + 4999` of the features and
  of the neighbour means, the two whole weight matrices and the whole bias row, and stores the rectified layer of those
  blocks into the same rows of the output. So the output array after the region is the rectified layer of the five arrays
  the region finds, whatever they hold.
-/
import proofs.«115271_j49486613185053_1_alg».proof.Proof.Gen.KernelIdeal.Frame
import proofs.«115271_j49486613185053_1_alg».proof.Proof.SageSpec
import Idealize.ShloMosaic.Lib.Pipeline.Value
import Idealize.ShloMosaic.Lib.ValueIdx
import Idealize.ShloMosaic.Lib.ValueLayout

set_option maxRecDepth 16384

noncomputable section

namespace Cert.KernelIdeal.Layer0

open Idealize.ShloMosaic Idealize.ShloMosaic.TcCoe Idealize.SL.Sem Idealize.ShloMosaic.ValueIdx
open Cert.KernelIdeal Cert.KernelIdeal.Gen
open Idealize.ShloMosaic.Pipeline (Dat)

/-! ## The contraction's index maps keep the output's row on the left and its column on the right -/

theorem dot_lhs_row (j : S5000x128.Idx) (k : dot_S5000x128_S128x128_S5000x128_1_0_0_1_n_n.contr.Idx) :
    (dot_S5000x128_S128x128_S5000x128_1_0_0_1_n_n.lhsIdx j k (0 : Fin 2)).val = (j (0 : Fin 2)).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem dot_rhs_col (j : S5000x128.Idx) (k : dot_S5000x128_S128x128_S5000x128_1_0_0_1_n_n.contr.Idx) :
    (dot_S5000x128_S128x128_S5000x128_1_0_0_1_n_n.rhsIdx j k (1 : Fin 2)).val = (j (1 : Fin 2)).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-! ## What the body stores, at row `r` and column `c` of the block -/

theorem stored_apply (x0 x1 : Vec Ideal S5000x128 .f32) (x2 x3 : Vec Ideal S128x128 .f32) (x4 : Vec Ideal S1x128 .f32)
    (r : Fin 5000) (c : Fin 128) :
    k0_pay1 x0 x1 x2 x3 x4 (ix2 r c) = max (Cert.Sage.affineAt x0 x1 x2 x3 x4 r c) Cert.Sage.zeroWord := by
  unfold k0_pay1
  simp only [maximumf_apply, addf_apply, broadcast_apply, shapeCast_self]
  have e1 := Cert.DenseRows.matmul_zero_plain_apply (M := 5000) (K := 128) (N := 128) dot_S5000x128_S128x128_S5000x128_1_0_0_1_n_n
    rfl rfl rfl rfl dot_lhs_row dot_rhs_col (truncf FTy.bf16 x0 bitsLt_bf16_f32) (truncf FTy.bf16 x2 bitsLt_bf16_f32) r c
  have e2 := Cert.DenseRows.matmul_zero_plain_apply (M := 5000) (K := 128) (N := 128) dot_S5000x128_S128x128_S5000x128_1_0_0_1_n_n
    rfl rfl rfl rfl dot_lhs_row dot_rhs_col (truncf FTy.bf16 x1 bitsLt_bf16_f32) (truncf FTy.bf16 x3 bitsLt_bf16_f32) r c
  have e3 := broadcastTo_1b_ab_apply (a := 5000) (b := 128) x4 broadcasts_S1x128_S5000x128 r c
  exact congrArg₂ max (congrArg₂ (· + ·) (congrArg₂ (· + ·) e1 e2) e3) rfl

/-- The same over a whole index of the block. -/
theorem stored_block (x0 x1 : Vec Ideal S5000x128 .f32) (x2 x3 : Vec Ideal S128x128 .f32) (x4 : Vec Ideal S1x128 .f32)
    (j : S5000x128.Idx) :
    k0_pay1 x0 x1 x2 x3 x4 j = max (Cert.Sage.affineAt x0 x1 x2 x3 x4 (j 0) (j 1)) Cert.Sage.zeroWord :=
  (congrArg (k0_pay1 x0 x1 x2 x3 x4) (eq_ix2 j)).trans (stored_apply x0 x1 x2 x3 x4 (j 0) (j 1))

/-! ## From the blocks to the array -/

section Blocks

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: the features', the means' and the output's blocks sit at block row `t`, column block 0; the
    weights' and the bias's blocks are the whole arrays. -/
theorem index_maps : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 :=
  (by decide +kernel : ∀ t : Fin grid0.N, _)

/-- Every block row of the output is some point's. -/
theorem index_onto : ∀ q : Fin 20, ∃ t : Fin cfg0.N, win0_5.index t = ![q.val, 0] :=
  (by decide +kernel : ∀ q : Fin 20, ∃ t : Fin grid0.N, win0_5.index t = ![q.val, 0])

/-- What point `t` stores at an index of its block is the rectified layer of the arrays at that index's place in the
    output array. -/
theorem block_eq (c : Dev nD) (t : Fin cfg0.N) (j : S5000x128.Idx) :
    k0_pay1 (iblk0 V c 0 t) (iblk0 V c 1 t) (iblk0 V c 2 t) (iblk0 V c 3 t) (iblk0 V c 4 t) j
      = Cert.Sage.rectified (V c main_arg0) (V c main_v18) (V c main_arg3) (V c main_arg4) (V c main_v19)
          (((cfg0.win 5).blk t).view.emb j) := by
  obtain ⟨e0, e1, e2, e3, e4, e5, e6, e7, e8, e9, e10⟩ := index_maps t
  refine (stored_block (iblk0 V c 0 t) (iblk0 V c 1 t) (iblk0 V c 2 t) (iblk0 V c 3 t) (iblk0 V c 4 t) j).trans ?_
  refine congrArg (max · Cert.Sage.zeroWord) (Cert.Sage.affineAt_congr (fun k => ?_) (fun k => ?_) (fun k => ?_) (fun k => ?_) ?_)
  · show V c main_arg0 (((cfg0.win 0).blk t).view.emb (ix2 (j 0) k)) = V c main_arg0 (ix2 ((((cfg0.win 5).blk t).view.emb j) 0) k)
    refine congrArg (V c main_arg0) (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * k.val = k.val; omega
  · show V c main_v18 (((cfg0.win 1).blk t).view.emb (ix2 (j 0) k)) = V c main_v18 (ix2 ((((cfg0.win 5).blk t).view.emb j) 0) k)
    refine congrArg (V c main_v18) (funext fun a => Fin.ext ?_)
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 128 + 1 * k.val = k.val; omega
  · show V c main_arg3 (((cfg0.win 2).blk t).view.emb (ix2 k (j 1))) = V c main_arg3 (ix2 k ((((cfg0.win 5).blk t).view.emb j) 1))
    refine congrArg (V c main_arg3) (funext fun a => Fin.ext ?_)
    match a with
    | ⟨0, _⟩ => show win0_2.index t (0 : Fin 2) * 128 + 1 * k.val = k.val; omega
    | ⟨1, _⟩ => show win0_2.index t (1 : Fin 2) * 128 + 1 * (j 1).val = win0_5.index t (1 : Fin 2) * 128 + 1 * (j 1).val; omega
  · show V c main_arg4 (((cfg0.win 3).blk t).view.emb (ix2 k (j 1))) = V c main_arg4 (ix2 k ((((cfg0.win 5).blk t).view.emb j) 1))
    refine congrArg (V c main_arg4) (funext fun a => Fin.ext ?_)
    match a with
    | ⟨0, _⟩ => show win0_3.index t (0 : Fin 2) * 128 + 1 * k.val = k.val; omega
    | ⟨1, _⟩ => show win0_3.index t (1 : Fin 2) * 128 + 1 * (j 1).val = win0_5.index t (1 : Fin 2) * 128 + 1 * (j 1).val; omega
  · show V c main_v19 (((cfg0.win 4).blk t).view.emb (ix2 (0 : Fin 1) (j 1))) = V c main_v19 (ix2 (0 : Fin 1) ((((cfg0.win 5).blk t).view.emb j) 1))
    refine congrArg (V c main_v19) (funext fun a => Fin.ext ?_)
    match a with
    | ⟨0, _⟩ => show win0_4.index t (0 : Fin 2) * 1 + 1 * 0 = 0; omega
    | ⟨1, _⟩ => show win0_4.index t (1 : Fin 2) * 128 + 1 * (j 1).val = win0_5.index t (1 : Fin 2) * 128 + 1 * (j 1).val; omega

/-- What point `t` writes back is block `t` of the rectified layer of the arrays the region finds. -/
theorem flushed_eq (c : Dev nD) (t : Fin cfg0.N) :
    (dat0 V c).flushed 5 t = ((cfg0.win 5).blk t).view.read (Elt Ideal)
      (Cert.Sage.rectified (V c main_arg0) (V c main_v18) (V c main_arg3) (V c main_arg4) (V c main_v19)) := by
  show (cfg0.win 5).cut (grid0.coords t) ((dat0 V c).after 5 t) = _
  rw [after0_5]
  unfold out0_5
  rw [View.canon_unit_zero zero_offsets]
  simp only [View.ld_unit_zero (S := S5000x128) zero_offsets, View.ld_unit_zero (S := S128x128) zero_offsets,
    View.ld_unit_zero (S := S1x128) zero_offsets]
  funext j
  exact block_eq V c t j

/-- An index of the output array is in point `t`'s block iff each coordinate is in the block's range on its axis. -/
theorem mem_block (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v20).slice (win0_5.rect t)).set ↔ _
  rw [View.set_slice_whole, Rect.mem_set_unit]
  exact Iff.rfl

/-- The twenty blocks cover the output array: row `ρ` is in the block of the point at block row `ρ / 5000`. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := index_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_block]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The output array after the region: the rectified layer of the features, the means, the two weight matrices and the
    bias row as the region finds them. -/
theorem final (c : Dev nD) :
    (dat0 V c).arrAt 5 cfg0.N
      = Cert.Sage.rectified (V c main_arg0) (V c main_v18) (V c main_arg3) (V c main_arg4) (V c main_v19) :=
  (dat0 V c).arrAt_eq_of_cover 5 _ (fun t _ => flushed_eq V c t) (covered)

end Blocks

end Cert.KernelIdeal.Layer0

end
-- ==== Proof.Stage1.lean ====
/-
  The first host stretch and the first region. After the host stretch the arguments are untouched, the buffer of the neighbour
  means holds the means of the input features, the bias row holds the first bias laid out as a row, and the degree column is
  in its buffer for the later stretches. The first region then leaves the first layer's output in its output array and
  changes nothing else that is read later.
-/
import proofs.«115271_j49486613185053_1_alg».proof.Proof.Gen.KernelIdeal.Frame
import proofs.«115271_j49486613185053_1_alg».proof.Proof.Region0
import proofs.«115271_j49486613185053_1_alg».proof.Proof.SageHost
import Idealize.ShloMosaic.Lib.StableHlo.Run

set_option maxRecDepth 16384

noncomputable section

namespace Cert.KernelIdeal.Stages

open Idealize.ShloMosaic Idealize.ShloMosaic.TcCoe Idealize.ShloMosaic.Tactic
open Idealize.SL.Sem
open Idealize.ShloMosaic.StableHlo
open Idealize.ShloMosaic.Pipeline (Dat Cfg Window)
open Cert.KernelIdeal Cert.KernelIdeal.Gen Cert.KernelIdeal.Facts₀ Cert.KernelIdeal.Facts

variable (m : (ℓ : Loc nD τ sig) → Buf (Elt Ideal) ℓ) (ρ : Dev nD → PrngReg) (c : Dev nD)

/-- A buffer that no operation of a host stretch writes holds after the stretch what it held before. -/
macro "host_keeps" : tactic => `(tactic| (
  refine StableHlo.after_of_forall_not_mem _ _ (List.forall_iff_forall_mem.mp ?_)
  simp only [hostOps0, hostOps1, hostOps2, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## After the first host stretch -/

theorem W1_main_arg0 : W1 m ρ c (Proc.devRef .tc main_arg0) = m ((c : Thread nD τ).loc main_arg0) :=
  (show StableHlo.after hostOps0 (W0 m ρ c) (Proc.devRef .tc main_arg0) = W0 m ρ c (Proc.devRef .tc main_arg0) by host_keeps).trans rfl

theorem W1_main_arg1 : W1 m ρ c (Proc.devRef .tc main_arg1) = m ((c : Thread nD τ).loc main_arg1) :=
  (show StableHlo.after hostOps0 (W0 m ρ c) (Proc.devRef .tc main_arg1) = W0 m ρ c (Proc.devRef .tc main_arg1) by host_keeps).trans rfl

theorem W1_main_arg2 : W1 m ρ c (Proc.devRef .tc main_arg2) = m ((c : Thread nD τ).loc main_arg2) :=
  (show StableHlo.after hostOps0 (W0 m ρ c) (Proc.devRef .tc main_arg2) = W0 m ρ c (Proc.devRef .tc main_arg2) by host_keeps).trans rfl

theorem W1_main_arg3 : W1 m ρ c (Proc.devRef .tc main_arg3) = m ((c : Thread nD τ).loc main_arg3) :=
  (show StableHlo.after hostOps0 (W0 m ρ c) (Proc.devRef .tc main_arg3) = W0 m ρ c (Proc.devRef .tc main_arg3) by host_keeps).trans rfl

theorem W1_main_arg4 : W1 m ρ c (Proc.devRef .tc main_arg4) = m ((c : Thread nD τ).loc main_arg4) :=
  (show StableHlo.after hostOps0 (W0 m ρ c) (Proc.devRef .tc main_arg4) = W0 m ρ c (Proc.devRef .tc main_arg4) by host_keeps).trans rfl

theorem W1_main_arg6 : W1 m ρ c (Proc.devRef .tc main_arg6) = m ((c : Thread nD τ).loc main_arg6) :=
  (show StableHlo.after hostOps0 (W0 m ρ c) (Proc.devRef .tc main_arg6) = W0 m ρ c (Proc.devRef .tc main_arg6) by host_keeps).trans rfl

theorem W1_main_arg7 : W1 m ρ c (Proc.devRef .tc main_arg7) = m ((c : Thread nD τ).loc main_arg7) :=
  (show StableHlo.after hostOps0 (W0 m ρ c) (Proc.devRef .tc main_arg7) = W0 m ρ c (Proc.devRef .tc main_arg7) by host_keeps).trans rfl

theorem W1_main_arg8 : W1 m ρ c (Proc.devRef .tc main_arg8) = m ((c : Thread nD τ).loc main_arg8) :=
  (show StableHlo.after hostOps0 (W0 m ρ c) (Proc.devRef .tc main_arg8) = W0 m ρ c (Proc.devRef .tc main_arg8) by host_keeps).trans rfl

theorem W1_main_arg9 : W1 m ρ c (Proc.devRef .tc main_arg9) = m ((c : Thread nD τ).loc main_arg9) :=
  (show StableHlo.after hostOps0 (W0 m ρ c) (Proc.devRef .tc main_arg9) = W0 m ρ c (Proc.devRef .tc main_arg9) by host_keeps).trans rfl

theorem W1_main_arg10 : W1 m ρ c (Proc.devRef .tc main_arg10) = m ((c : Thread nD τ).loc main_arg10) :=
  (show StableHlo.after hostOps0 (W0 m ρ c) (Proc.devRef .tc main_arg10) = W0 m ρ c (Proc.devRef .tc main_arg10) by host_keeps).trans rfl

theorem W1_main_arg11 : W1 m ρ c (Proc.devRef .tc main_arg11) = m ((c : Thread nD τ).loc main_arg11) :=
  (show StableHlo.after hostOps0 (W0 m ρ c) (Proc.devRef .tc main_arg11) = W0 m ρ c (Proc.devRef .tc main_arg11) by host_keeps).trans rfl

theorem W1_degColumn : W1 m ρ c (Proc.devRef .tc main_v6) = Cert.Sage.degColumn (m ((c : Thread nD τ).loc main_arg2)) := by
  show StableHlo.after hostOps0 (W0 m ρ c) (Proc.devRef .tc main_v6) = _
  simp only [hostOps0]
  after_results
  rfl

theorem W1_mean : W1 m ρ c (Proc.devRef .tc main_v18)
    = Cert.Sage.neighbourMean (m ((c : Thread nD τ).loc main_arg0)) (m ((c : Thread nD τ).loc main_arg1)) (m ((c : Thread nD τ).loc main_arg2)) := by
  show StableHlo.after hostOps0 (W0 m ρ c) (Proc.devRef .tc main_v18) = _
  simp only [hostOps0]
  after_results_simp <;> rfl

theorem W1_biasRow : W1 m ρ c (Proc.devRef .tc main_v19) = Cert.Sage.biasRow128 (m ((c : Thread nD τ).loc main_arg5)) := by
  show StableHlo.after hostOps0 (W0 m ρ c) (Proc.devRef .tc main_v19) = _
  simp only [hostOps0]
  after_results_simp <;> rfl

/-! ## After the first region -/

theorem W2_main_arg1 : W2 m ρ c (Proc.devRef .tc main_arg1) = m ((c : Thread nD τ).loc main_arg1) :=
  (W2_of_ne m ρ c main_arg1 (by decide)).trans (W1_main_arg1 m ρ c)

theorem W2_main_arg2 : W2 m ρ c (Proc.devRef .tc main_arg2) = m ((c : Thread nD τ).loc main_arg2) :=
  (W2_of_ne m ρ c main_arg2 (by decide)).trans (W1_main_arg2 m ρ c)

theorem W2_main_arg6 : W2 m ρ c (Proc.devRef .tc main_arg6) = m ((c : Thread nD τ).loc main_arg6) :=
  (W2_of_ne m ρ c main_arg6 (by decide)).trans (W1_main_arg6 m ρ c)

theorem W2_main_arg7 : W2 m ρ c (Proc.devRef .tc main_arg7) = m ((c : Thread nD τ).loc main_arg7) :=
  (W2_of_ne m ρ c main_arg7 (by decide)).trans (W1_main_arg7 m ρ c)

theorem W2_main_arg8 : W2 m ρ c (Proc.devRef .tc main_arg8) = m ((c : Thread nD τ).loc main_arg8) :=
  (W2_of_ne m ρ c main_arg8 (by decide)).trans (W1_main_arg8 m ρ c)

theorem W2_main_arg9 : W2 m ρ c (Proc.devRef .tc main_arg9) = m ((c : Thread nD τ).loc main_arg9) :=
  (W2_of_ne m ρ c main_arg9 (by decide)).trans (W1_main_arg9 m ρ c)

theorem W2_main_arg10 : W2 m ρ c (Proc.devRef .tc main_arg10) = m ((c : Thread nD τ).loc main_arg10) :=
  (W2_of_ne m ρ c main_arg10 (by decide)).trans (W1_main_arg10 m ρ c)

theorem W2_main_arg11 : W2 m ρ c (Proc.devRef .tc main_arg11) = m ((c : Thread nD τ).loc main_arg11) :=
  (W2_of_ne m ρ c main_arg11 (by decide)).trans (W1_main_arg11 m ρ c)

theorem W2_degColumn : W2 m ρ c (Proc.devRef .tc main_v6) = Cert.Sage.degColumn (m ((c : Thread nD τ).loc main_arg2)) :=
  (W2_of_ne m ρ c main_v6 (by decide)).trans (W1_degColumn m ρ c)

/-- The first region's output array holds the first layer's output. -/
theorem W2_hidden1 : W2 m ρ c (Proc.devRef .tc main_v20) = Cert.Sage.hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine ((W2_arr m ρ c 5).trans (Cert.KernelIdeal.Layer0.final (V1 m ρ) c)).trans ?_
  show Cert.Sage.rectified (W1 m ρ c (Proc.devRef .tc main_arg0)) (W1 m ρ c (Proc.devRef .tc main_v18))
    (W1 m ρ c (Proc.devRef .tc main_arg3)) (W1 m ρ c (Proc.devRef .tc main_arg4)) (W1 m ρ c (Proc.devRef .tc main_v19)) = _
  rw [W1_main_arg0, W1_mean, W1_main_arg3, W1_main_arg4, W1_biasRow]
  rfl

end Cert.KernelIdeal.Stages

end
-- ==== Proof.Stage2.lean ====
/-
  The second host stretch and the second region. The stretch leaves the arguments, the degree column and the first layer's
  output untouched, puts the neighbour means of the first layer's output in the means buffer and the second bias in its row.
  The second region then leaves the second layer's output in its output array.
-/
import proofs.«115271_j49486613185053_1_alg».proof.Proof.Gen.KernelIdeal.Frame
import proofs.«115271_j49486613185053_1_alg».proof.Proof.Region1
import proofs.«115271_j49486613185053_1_alg».proof.Proof.SageHost
import proofs.«115271_j49486613185053_1_alg».proof.Proof.Stage1
import Idealize.ShloMosaic.Lib.StableHlo.Run

set_option maxRecDepth 16384

noncomputable section

namespace Cert.KernelIdeal.Stages

open Idealize.ShloMosaic Idealize.ShloMosaic.TcCoe Idealize.ShloMosaic.Tactic
open Idealize.SL.Sem
open Idealize.ShloMosaic.StableHlo
open Idealize.ShloMosaic.Pipeline (Dat Cfg Window)
open Cert.KernelIdeal Cert.KernelIdeal.Gen Cert.KernelIdeal.Facts₀ Cert.KernelIdeal.Facts

variable (m : (ℓ : Loc nD τ sig) → Buf (Elt Ideal) ℓ) (ρ : Dev nD → PrngReg) (c : Dev nD)

/-! ## After the second host stretch -/

theorem W3_main_arg1 : W3 m ρ c (Proc.devRef .tc main_arg1) = m ((c : Thread nD τ).loc main_arg1) :=
  (show StableHlo.after hostOps1 (W2 m ρ c) (Proc.devRef .tc main_arg1) = W2 m ρ c (Proc.devRef .tc main_arg1) by host_keeps).trans (W2_main_arg1 m ρ c)

theorem W3_main_arg2 : W3 m ρ c (Proc.devRef .tc main_arg2) = m ((c : Thread nD τ).loc main_arg2) :=
  (show StableHlo.after hostOps1 (W2 m ρ c) (Proc.devRef .tc main_arg2) = W2 m ρ c (Proc.devRef .tc main_arg2) by host_keeps).trans (W2_main_arg2 m ρ c)

theorem W3_main_arg6 : W3 m ρ c (Proc.devRef .tc main_arg6) = m ((c : Thread nD τ).loc main_arg6) :=
  (show StableHlo.after hostOps1 (W2 m ρ c) (Proc.devRef .tc main_arg6) = W2 m ρ c (Proc.devRef .tc main_arg6) by host_keeps).trans (W2_main_arg6 m ρ c)

theorem W3_main_arg7 : W3 m ρ c (Proc.devRef .tc main_arg7) = m ((c : Thread nD τ).loc main_arg7) :=
  (show StableHlo.after hostOps1 (W2 m ρ c) (Proc.devRef .tc main_arg7) = W2 m ρ c (Proc.devRef .tc main_arg7) by host_keeps).trans (W2_main_arg7 m ρ c)

theorem W3_main_arg9 : W3 m ρ c (Proc.devRef .tc main_arg9) = m ((c : Thread nD τ).loc main_arg9) :=
  (show StableHlo.after hostOps1 (W2 m ρ c) (Proc.devRef .tc main_arg9) = W2 m ρ c (Proc.devRef .tc main_arg9) by host_keeps).trans (W2_main_arg9 m ρ c)

theorem W3_main_arg10 : W3 m ρ c (Proc.devRef .tc main_arg10) = m ((c : Thread nD τ).loc main_arg10) :=
  (show StableHlo.after hostOps1 (W2 m ρ c) (Proc.devRef .tc main_arg10) = W2 m ρ c (Proc.devRef .tc main_arg10) by host_keeps).trans (W2_main_arg10 m ρ c)

theorem W3_main_arg11 : W3 m ρ c (Proc.devRef .tc main_arg11) = m ((c : Thread nD τ).loc main_arg11) :=
  (show StableHlo.after hostOps1 (W2 m ρ c) (Proc.devRef .tc main_arg11) = W2 m ρ c (Proc.devRef .tc main_arg11) by host_keeps).trans (W2_main_arg11 m ρ c)

theorem W3_degColumn : W3 m ρ c (Proc.devRef .tc main_v6) = Cert.Sage.degColumn (m ((c : Thread nD τ).loc main_arg2)) :=
  (show StableHlo.after hostOps1 (W2 m ρ c) (Proc.devRef .tc main_v6) = W2 m ρ c (Proc.devRef .tc main_v6) by host_keeps).trans (W2_degColumn m ρ c)

theorem W3_hidden1 : W3 m ρ c (Proc.devRef .tc main_v20) = Cert.Sage.hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (show StableHlo.after hostOps1 (W2 m ρ c) (Proc.devRef .tc main_v20) = W2 m ρ c (Proc.devRef .tc main_v20) by host_keeps).trans (W2_hidden1 m ρ c)

/-- The means buffer holds the neighbour means of the previous layer's output. -/
theorem W3_mean : W3 m ρ c (Proc.devRef .tc main_v32)
    = Cert.Sage.neighbourMean (Cert.Sage.hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) := by
  show StableHlo.after hostOps1 (W2 m ρ c) (Proc.devRef .tc main_v32) = _
  simp only [hostOps1]
  after_results_simp
  rw [W2_hidden1, W2_main_arg1, W2_main_arg2, W2_degColumn]
  rfl

/-- The bias row holds this layer's bias laid out as a row. -/
theorem W3_biasRow : W3 m ρ c (Proc.devRef .tc main_v33) = Cert.Sage.biasRow128 (m ((c : Thread nD τ).loc main_arg8)) := by
  show StableHlo.after hostOps1 (W2 m ρ c) (Proc.devRef .tc main_v33) = _
  simp only [hostOps1]
  after_results_simp
  rw [W2_main_arg8]
  rfl

/-! ## After the second region -/

theorem W4_main_arg1 : W4 m ρ c (Proc.devRef .tc main_arg1) = m ((c : Thread nD τ).loc main_arg1) :=
  (W4_of_ne m ρ c main_arg1 (by decide)).trans (W3_main_arg1 m ρ c)

theorem W4_main_arg2 : W4 m ρ c (Proc.devRef .tc main_arg2) = m ((c : Thread nD τ).loc main_arg2) :=
  (W4_of_ne m ρ c main_arg2 (by decide)).trans (W3_main_arg2 m ρ c)

theorem W4_main_arg9 : W4 m ρ c (Proc.devRef .tc main_arg9) = m ((c : Thread nD τ).loc main_arg9) :=
  (W4_of_ne m ρ c main_arg9 (by decide)).trans (W3_main_arg9 m ρ c)

theorem W4_main_arg10 : W4 m ρ c (Proc.devRef .tc main_arg10) = m ((c : Thread nD τ).loc main_arg10) :=
  (W4_of_ne m ρ c main_arg10 (by decide)).trans (W3_main_arg10 m ρ c)

theorem W4_main_arg11 : W4 m ρ c (Proc.devRef .tc main_arg11) = m ((c : Thread nD τ).loc main_arg11) :=
  (W4_of_ne m ρ c main_arg11 (by decide)).trans (W3_main_arg11 m ρ c)

theorem W4_degColumn : W4 m ρ c (Proc.devRef .tc main_v6) = Cert.Sage.degColumn (m ((c : Thread nD τ).loc main_arg2)) :=
  (W4_of_ne m ρ c main_v6 (by decide)).trans (W3_degColumn m ρ c)

/-- The second region's output array holds the second layer's output. -/
theorem W4_hidden2 : W4 m ρ c (Proc.devRef .tc main_v34) = Cert.Sage.hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine ((W4_arr m ρ c 5).trans (Cert.KernelIdeal.Layer1.final (V3 m ρ) c)).trans ?_
  show Cert.Sage.rectified (W3 m ρ c (Proc.devRef .tc main_v20)) (W3 m ρ c (Proc.devRef .tc main_v32))
    (W3 m ρ c (Proc.devRef .tc main_arg6)) (W3 m ρ c (Proc.devRef .tc main_arg7)) (W3 m ρ c (Proc.devRef .tc main_v33)) = _
  rw [W3_hidden1, W3_mean, W3_main_arg6, W3_main_arg7, W3_biasRow]
  rfl

end Cert.KernelIdeal.Stages

end
-- ==== Proof.Stage3.lean ====
/-
  The third host stretch and the third region. The stretch leaves the arguments, the degree column and the second layer's
  output untouched, puts the neighbour means of the second layer's output in the means buffer and the third bias in its row.
  The third region then leaves the network's output in the result array.
-/
import proofs.«115271_j49486613185053_1_alg».proof.Proof.Gen.KernelIdeal.Frame
import proofs.«115271_j49486613185053_1_alg».proof.Proof.Region2
import proofs.«115271_j49486613185053_1_alg».proof.Proof.SageHost
import proofs.«115271_j49486613185053_1_alg».proof.Proof.Stage2
import Idealize.ShloMosaic.Lib.StableHlo.Run

set_option maxRecDepth 16384

noncomputable section

namespace Cert.KernelIdeal.Stages

open Idealize.ShloMosaic Idealize.ShloMosaic.TcCoe Idealize.ShloMosaic.Tactic
open Idealize.SL.Sem
open Idealize.ShloMosaic.StableHlo
open Idealize.ShloMosaic.Pipeline (Dat Cfg Window)
open Cert.KernelIdeal Cert.KernelIdeal.Gen Cert.KernelIdeal.Facts₀ Cert.KernelIdeal.Facts

variable (m : (ℓ : Loc nD τ sig) → Buf (Elt Ideal) ℓ) (ρ : Dev nD → PrngReg) (c : Dev nD)

/-! ## After the third host stretch -/

theorem W5_main_arg1 : W5 m ρ c (Proc.devRef .tc main_arg1) = m ((c : Thread nD τ).loc main_arg1) :=
  (show StableHlo.after hostOps2 (W4 m ρ c) (Proc.devRef .tc main_arg1) = W4 m ρ c (Proc.devRef .tc main_arg1) by host_keeps).trans (W4_main_arg1 m ρ c)

theorem W5_main_arg2 : W5 m ρ c (Proc.devRef .tc main_arg2) = m ((c : Thread nD τ).loc main_arg2) :=
  (show StableHlo.after hostOps2 (W4 m ρ c) (Proc.devRef .tc main_arg2) = W4 m ρ c (Proc.devRef .tc main_arg2) by host_keeps).trans (W4_main_arg2 m ρ c)

theorem W5_main_arg9 : W5 m ρ c (Proc.devRef .tc main_arg9) = m ((c : Thread nD τ).loc main_arg9) :=
  (show StableHlo.after hostOps2 (W4 m ρ c) (Proc.devRef .tc main_arg9) = W4 m ρ c (Proc.devRef .tc main_arg9) by host_keeps).trans (W4_main_arg9 m ρ c)

theorem W5_main_arg10 : W5 m ρ c (Proc.devRef .tc main_arg10) = m ((c : Thread nD τ).loc main_arg10) :=
  (show StableHlo.after hostOps2 (W4 m ρ c) (Proc.devRef .tc main_arg10) = W4 m ρ c (Proc.devRef .tc main_arg10) by host_keeps).trans (W4_main_arg10 m ρ c)

theorem W5_main_arg11 : W5 m ρ c (Proc.devRef .tc main_arg11) = m ((c : Thread nD τ).loc main_arg11) :=
  (show StableHlo.after hostOps2 (W4 m ρ c) (Proc.devRef .tc main_arg11) = W4 m ρ c (Proc.devRef .tc main_arg11) by host_keeps).trans (W4_main_arg11 m ρ c)

theorem W5_degColumn : W5 m ρ c (Proc.devRef .tc main_v6) = Cert.Sage.degColumn (m ((c : Thread nD τ).loc main_arg2)) :=
  (show StableHlo.after hostOps2 (W4 m ρ c) (Proc.devRef .tc main_v6) = W4 m ρ c (Proc.devRef .tc main_v6) by host_keeps).trans (W4_degColumn m ρ c)

theorem W5_hidden2 : W5 m ρ c (Proc.devRef .tc main_v34) = Cert.Sage.hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (show StableHlo.after hostOps2 (W4 m ρ c) (Proc.devRef .tc main_v34) = W4 m ρ c (Proc.devRef .tc main_v34) by host_keeps).trans (W4_hidden2 m ρ c)

/-- The means buffer holds the neighbour means of the previous layer's output. -/
theorem W5_mean : W5 m ρ c (Proc.devRef .tc main_v46)
    = Cert.Sage.neighbourMean (Cert.Sage.hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg1)) (m ((c : Thread nD τ).loc main_arg2)) := by
  show StableHlo.after hostOps2 (W4 m ρ c) (Proc.devRef .tc main_v46) = _
  simp only [hostOps2]
  after_results_simp
  rw [W4_hidden2, W4_main_arg1, W4_main_arg2, W4_degColumn]
  rfl

/-- The bias row holds this layer's bias laid out as a row. -/
theorem W5_biasRow : W5 m ρ c (Proc.devRef .tc main_v47) = Cert.Sage.biasRow64 (m ((c : Thread nD τ).loc main_arg11)) := by
  show StableHlo.after hostOps2 (W4 m ρ c) (Proc.devRef .tc main_v47) = _
  simp only [hostOps2]
  after_results_simp
  rw [W4_main_arg11]
  rfl

/-! ## After the third region -/

/-- The third region's output array, the program's result, holds the network's output. -/
theorem W6_output : W6 m ρ c (Proc.devRef .tc main_v48) = Cert.Sage.output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine ((W6_arr m ρ c 5).trans (Cert.KernelIdeal.Layer2.final (V5 m ρ) c)).trans ?_
  show Cert.Sage.affine (W5 m ρ c (Proc.devRef .tc main_v34)) (W5 m ρ c (Proc.devRef .tc main_v46))
    (W5 m ρ c (Proc.devRef .tc main_arg9)) (W5 m ρ c (Proc.devRef .tc main_arg10)) (W5 m ρ c (Proc.devRef .tc main_v47)) = _
  rw [W5_hidden2, W5_mean, W5_main_arg9, W5_main_arg10, W5_biasRow]
  rfl

end Cert.KernelIdeal.Stages

end
-- ==== Proof.RefValue.lean ====
/-
  The reference program's result is the network of three layers. The program spells a layer on the host: the neighbour means
  by a gather, a scatter-add and a division by the degree; then two `dot_general`s, their sum, the bias broadcast along the
  rows, and for the first two layers the maximum with a zero array. Each of these spellings is named here, the program's
  result term is their composition by unfolding, and each named spelling is the shared one: the means are the same host
  operations letter for letter, and a layer read at a row and a column is the layer function of the specification.
-/
import proofs.«115271_j49486613185053_1_alg».proof.Proof.Gen.ReferenceIdeal.Run
import proofs.«115271_j49486613185053_1_alg».proof.Proof.Gen.ReferenceIdeal.Read
import proofs.«115271_j49486613185053_1_alg».proof.Proof.SageSpec
import proofs.«115271_j49486613185053_1_alg».proof.Proof.SageHost
import Idealize.ShloMosaic.Lib.Pipeline.Value
import Idealize.ShloMosaic.Lib.ValueIdx

set_option maxRecDepth 16384

noncomputable section

namespace Cert.ReferenceIdeal.RefValue

open Idealize.ShloMosaic Idealize.ShloMosaic.TcCoe Idealize.SL.Sem Idealize.ShloMosaic.ValueIdx
open Cert.ReferenceIdeal Cert.ReferenceIdeal.Gen

/-! ## The host's spellings, named -/

/-- The neighbour means as the reference spells them. -/
def hostMean (h : FVec Ideal S100000x128 .f32) (src dst : (⟨S1600000, .i32⟩ : BufTy).Contents (Elt Ideal)) : FVec Ideal S100000x128 .f32 :=
  (Host.divf (Host.scatterAdd scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 dst) (Host.gather gather_S100000x128_S1600000x1_S1600000x128_1_0_n_n_0_1_1128 h (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) (broadcastInDim S100000x128 ![0, 1] bcast_S100000x1_S100000x128_0_1 (broadcastInDim S100000x1 ![0] bcast_S100000_S100000x1_0 (maximumf (Host.scatterAdd scatter_S100000_S1600000x1_S1600000_n_0_0_1 (broadcastInDim S100000 ![] bcast_S_S100000 (constant (F := Ideal) S_ .f32 0x00000000#32)) (broadcastInDim S1600000x1 ![0] bcast_S1600000_S1600000x1_0 dst) (broadcastInDim S1600000 ![] bcast_S_S1600000 (constant (F := Ideal) S_ .f32 0x3F800000#32))) (broadcastInDim S100000 ![] bcast_S_S100000 (constant (F := Ideal) S_ .f32 0x3F800000#32))))))

/-- A rectified layer of 128 columns as the reference spells it. -/
def hostRectified (h mean : FVec Ideal S100000x128 .f32) (Ws Wn : FVec Ideal S128x128 .f32) (b : FVec Ideal S128 .f32) : FVec Ideal S100000x128 .f32 :=
  maximumf
    (addf (addf (Host.dotGeneral dot_S100000x128_S128x128_S100000x128_1_0_0_1_n_n none h Ws)
        (Host.dotGeneral dot_S100000x128_S128x128_S100000x128_1_0_0_1_n_n none mean Wn))
      (broadcastInDim S100000x128 ![0, 1] bcast_S1x128_S100000x128_0_1 (broadcastInDim S1x128 ![1] bcast_S128_S1x128_1 b)))
    (broadcastInDim S100000x128 ![] bcast_S_S100000x128 (constant (F := Ideal) S_ .f32 0x00000000#32))

/-- The last layer, of 64 columns and not rectified, as the reference spells it. -/
def hostLast (h mean : FVec Ideal S100000x128 .f32) (Ws Wn : FVec Ideal S128x64 .f32) (b : FVec Ideal S64 .f32) : FVec Ideal S100000x64 .f32 :=
  addf (addf (Host.dotGeneral dot_S100000x128_S128x64_S100000x64_1_0_0_1_n_n none h Ws)
      (Host.dotGeneral dot_S100000x128_S128x64_S100000x64_1_0_0_1_n_n none mean Wn))
    (broadcastInDim S100000x64 ![0, 1] bcast_S1x64_S100000x64_0_1 (broadcastInDim S1x64 ![1] bcast_S64_S1x64_1 b))

/-- The three layers composed, in the reference's spelling. -/
def hostNetwork (x : FVec Ideal S100000x128 .f32) (src dst : (⟨S1600000, .i32⟩ : BufTy).Contents (Elt Ideal)) (Ws0 Wn0 : FVec Ideal S128x128 .f32) (b0 : FVec Ideal S128 .f32) (Ws1 Wn1 : FVec Ideal S128x128 .f32) (b1 : FVec Ideal S128 .f32)
    (Ws2 Wn2 : FVec Ideal S128x64 .f32) (b2 : FVec Ideal S64 .f32) : FVec Ideal S100000x64 .f32 :=
  hostLast
    (hostRectified (hostRectified x (hostMean x src dst) Ws0 Wn0 b0)
      (hostMean (hostRectified x (hostMean x src dst) Ws0 Wn0 b0) src dst) Ws1 Wn1 b1)
    (hostMean (hostRectified (hostRectified x (hostMean x src dst) Ws0 Wn0 b0)
      (hostMean (hostRectified x (hostMean x src dst) Ws0 Wn0 b0) src dst) Ws1 Wn1 b1) src dst)
    Ws2 Wn2 b2

/-! ## Each spelling is the shared one -/

/-- The means: the same host operations with the same dimension numbers. -/
theorem hostMean_eq (h : FVec Ideal S100000x128 .f32) (src dst : (⟨S1600000, .i32⟩ : BufTy).Contents (Elt Ideal)) : hostMean h src dst = Cert.Sage.neighbourMean h src dst := rfl

/-- A rectified layer, read at a row and a column. -/
theorem hostRectified_eq (h mean : FVec Ideal S100000x128 .f32) (Ws Wn : FVec Ideal S128x128 .f32) (b : FVec Ideal S128 .f32) :
    hostRectified h mean Ws Wn b
      = Cert.Sage.rectified (M := 100000) (K := 128) (N := 128) h mean Ws Wn (Cert.Sage.biasRow128 b) := by
  funext j
  obtain ⟨r, q, rfl⟩ : ∃ (r : Fin 100000) (q : Fin 128), j = ix2 r q := ⟨j 0, j 1, eq_ix2 j⟩
  refine congrArg₂ max
    (Cert.Sage.hostLayer_apply (M := 100000) (K := 128) (N := 128) dot_S100000x128_S128x128_S100000x128_1_0_0_1_n_n
      rfl rfl rfl rfl Cert.ReferenceIdeal.Read.lhs_main_v19_0 Cert.ReferenceIdeal.Read.rhs_main_v19_1 h mean Ws Wn b
      bcast_S128_S1x128_1 bcast_S1x128_S100000x128_0_1 _ r q) ?_
  exact broadcastInDim_apply _ bcast_S_S100000x128 _ _ (fun a => a.elim0) (fun a => a.elim0)

/-- The last layer, read at a row and a column. -/
theorem hostLast_eq (h mean : FVec Ideal S100000x128 .f32) (Ws Wn : FVec Ideal S128x64 .f32) (b : FVec Ideal S64 .f32) :
    hostLast h mean Ws Wn b
      = Cert.Sage.affine (M := 100000) (K := 128) (N := 64) h mean Ws Wn (Cert.Sage.biasRow64 b) := by
  funext j
  obtain ⟨r, q, rfl⟩ : ∃ (r : Fin 100000) (q : Fin 64), j = ix2 r q := ⟨j 0, j 1, eq_ix2 j⟩
  exact Cert.Sage.hostLayer_apply (M := 100000) (K := 128) (N := 64) dot_S100000x128_S128x64_S100000x64_1_0_0_1_n_n
    rfl rfl rfl rfl Cert.ReferenceIdeal.Read.lhs_main_v71_0 Cert.ReferenceIdeal.Read.rhs_main_v71_1 h mean Ws Wn b
    bcast_S64_S1x64_1 bcast_S1x64_S100000x64_0_1 _ r q

/-- The composition is the network of the specification. -/
theorem hostNetwork_eq (x : FVec Ideal S100000x128 .f32) (src dst : (⟨S1600000, .i32⟩ : BufTy).Contents (Elt Ideal)) (Ws0 Wn0 : FVec Ideal S128x128 .f32) (b0 : FVec Ideal S128 .f32) (Ws1 Wn1 : FVec Ideal S128x128 .f32) (b1 : FVec Ideal S128 .f32)
    (Ws2 Wn2 : FVec Ideal S128x64 .f32) (b2 : FVec Ideal S64 .f32) :
    hostNetwork x src dst Ws0 Wn0 b0 Ws1 Wn1 b1 Ws2 Wn2 b2 = Cert.Sage.output x src dst Ws0 Wn0 b0 Ws1 Wn1 b1 Ws2 Wn2 b2 := by
  unfold hostNetwork Cert.Sage.output Cert.Sage.hidden2 Cert.Sage.hidden1
  rw [hostLast_eq, hostRectified_eq, hostRectified_eq, hostMean_eq, hostMean_eq, hostMean_eq]

/-! ## The program's result -/

/-- The result term of the reference's run is the composition of its named spellings. -/
theorem result_spelled (m : (ℓ : Loc nD τ sig) → Buf (Elt Ideal) ℓ) (c : Dev nD) :
    Cert.ReferenceIdeal.Value.res_main_v76 (F := Ideal) m c
      = hostNetwork (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold Cert.ReferenceIdeal.Value.res_main_v76
  rfl

/-- The reference's result is the network of the specification, of the argument arrays. -/
theorem result_eq (m : (ℓ : Loc nD τ sig) → Buf (Elt Ideal) ℓ) (c : Dev nD) :
    Cert.ReferenceIdeal.Value.res_main_v76 (F := Ideal) m c
      = Cert.Sage.output (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (result_spelled m c).trans (hostNetwork_eq _ _ _ _ _ _ _ _ _ _ _ _)

end Cert.ReferenceIdeal.RefValue

end
-- ==== Proof.lean ====
/-
  A three-layer graph convolution over 100000 nodes and 1600000 edges: each layer maps node features `h` to
  `h · Ws + mean(h) · Wn + b`, where `mean(h)` is every node's average of its in-neighbours' features (a gather along the
  edges' sources, a scatter-add along their destinations, a division by the in-degree, at least one), and the first two
  layers are followed by the maximum with zero. The kernel program computes the means on the host and each layer's dense
  part in a pipelined region of twenty row blocks, the products taken through a narrower float format; the reference computes
  everything on the host.

  At the ideal values a change of float format is the identity, a matrix product into a zero accumulator and a
  `dot_general` are the same sum over the contracted index, and the bias row broadcast down a block's rows is the bias vector
  broadcast down the array's rows. So each region's output array is the layer function of the arrays it finds (one module per
  region), the buffers' contents at the boundaries between host stretches and regions compose into the three-layer network
  (one module per stretch and region), the reference's result term is the same network (one module), and the two results
  agree element by element for every input: no hypothesis on the inputs is used. The sanctioned idealization rewrote no
  operation, so there is nothing to preserve beyond the program's own text.
-/
import proofs.«115271_j49486613185053_1_alg».proof.Defs
import proofs.«115271_j49486613185053_1_alg».proof.Proof.Gen.Kernel
import proofs.«115271_j49486613185053_1_alg».proof.Proof.Gen.Kernel.Skeleton
import proofs.«115271_j49486613185053_1_alg».proof.Proof.Gen.Kernel.Launch
import proofs.«115271_j49486613185053_1_alg».proof.Proof.Gen.Kernel.Points
import proofs.«115271_j49486613185053_1_alg».proof.Proof.Gen.Kernel.Frame
import proofs.«115271_j49486613185053_1_alg».proof.Proof.Gen.KernelIdeal
import proofs.«115271_j49486613185053_1_alg».proof.Proof.Gen.KernelIdeal.Skeleton
import proofs.«115271_j49486613185053_1_alg».proof.Proof.Gen.KernelIdeal.Launch
import proofs.«115271_j49486613185053_1_alg».proof.Proof.Gen.KernelIdeal.Points
import proofs.«115271_j49486613185053_1_alg».proof.Proof.Gen.KernelIdeal.Frame
import proofs.«115271_j49486613185053_1_alg».proof.Proof.Gen.ReferenceIdeal
import proofs.«115271_j49486613185053_1_alg».proof.Proof.Gen.Pre_finite_inputs
import proofs.«115271_j49486613185053_1_alg».proof.Proof.Gen.ReferenceIdeal.Run
import proofs.«115271_j49486613185053_1_alg».proof.Proof.Gen.ReferenceIdeal.Read
import proofs.«115271_j49486613185053_1_alg».proof.Proof.KernelRun
import proofs.«115271_j49486613185053_1_alg».proof.Proof.Stage3
import proofs.«115271_j49486613185053_1_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- The idealized kernel runs and leaves its arguments as launched. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The idealized reference runs and leaves its arguments as launched: its run, the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the twelve arguments both idealized programs end with the three-layer network of those
    arguments in their result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, (θ_run Cert.KernelIdeal.defs _ _).mono
    (fun r h c => ⟨(h c).1.trans (Cert.KernelIdeal.Stages.W6_output m ρ c), (h c).2⟩) (Cert.KernelIdeal.Result.run (F := Ideal) m ρ), ?_⟩
  refine (θ_run Cert.ReferenceIdeal.defs _ _).mono (fun _ h c => ⟨(h c).1.trans ?_, (h c).2⟩)
    (Cert.ReferenceIdeal.Value.run (F := Ideal) m' ρ')
  have e := Cert.ReferenceIdeal.RefValue.result_eq m' c
  obtain ⟨a0, a1, a2, a3, a4, a5, a6, a7, a8, a9, a10, a11⟩ := hagree c
  rw [a0, a1, a2, a3, a4, a5, a6, a7, a8, a9, a10, a11] at e
  exact e

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
